-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S_ : Shape := ⟨0, ![]⟩
abbrev S16384x1 : Shape := ⟨2, ![16384, 1]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩
abbrev S16384 : Shape := ⟨1, ![16384]⟩

abbrev nBuf : Space → Nat
  | .hbm => 11
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S_, .f32⟩
  | .hbm, ⟨2, _⟩ => ⟨S16384x128, .f32⟩
  | .hbm, ⟨3, _⟩ => ⟨S16384x128, .f32⟩
  | .hbm, ⟨4, _⟩ => ⟨S16384x128, .bf16⟩
  | .hbm, ⟨5, _⟩ => ⟨S16384x1, .f32⟩
  | .hbm, ⟨6, _⟩ => ⟨S16384, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32_11 : BitVec 32 := 0#32
  let c0_i32 : BitVec 32 := 0#32
  let c1_i32 : BitVec 32 := 1#32
  let arg5 : BitVec 32 := Scf.iv c0_i32 c1_i32 k0_t1
  let c1_i32_10 : BitVec 32 := 1#32
  let v14 : BitVec 32 := Scalar.muli arg5 c1_i32_10
  let v15 : BitVec 32 := Scalar.addi c0_i32_11 v14
  let c1024_i32 : BitVec 32 := 1024#32
  let v16 : BitVec 32 := Scalar.muli v15 c1024_i32
  v16
def k0_off1 (k0_t1 : Fin k0_t1_loop.trips) : Fin 2 → Nat :=
  let c0_i32_11 : BitVec 32 := 0#32
  let c0_i32 : BitVec 32 := 0#32
  let c1_i32 : BitVec 32 := 1#32
  let arg5 : BitVec 32 := Scf.iv c0_i32 c1_i32 k0_t1
  let c1_i32_10 : BitVec 32 := 1#32
  let v14 : BitVec 32 := Scalar.muli arg5 c1_i32_10
  let v15 : BitVec 32 := Scalar.addi c0_i32_11 v14
  let c1024_i32 : BitVec 32 := 1024#32
  let v16 : BitVec 32 := Scalar.muli v15 c1024_i32
  let v17 : BitVec 32 := v16
  let v18 : Index := Scalar.indexCast v17
  let c0_12 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S16384x128 : S_.BroadcastsInDim S16384x128 (![] : Fin 0 → Fin S16384x128.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  shapeCasts_S16384x1_S16384 : S16384x1.ShapeCasts S16384
  reducesTo_S16384_S_d0 : S16384.ReducesTo [0] S_
  h_S_ : 0 < S_.numel
  dot_S1024x128_S128x1024_S1024x1024_1_0_0_1_n_n_wf : DotDims.WF S1024x128 S128x1024 S1024x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .bf16 = 32 ∨ (Rect.block (s := S16384x128) S1024x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S_ : Shape := ⟨0, ![]⟩
abbrev S128x16384 : Shape := ⟨2, ![128, 16384]⟩
abbrev S16384x16384 : Shape := ⟨2, ![16384, 16384]⟩
abbrev S16384 : Shape := ⟨1, ![16384]⟩

abbrev nBuf : Space → Nat
  | .hbm => 18
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S_, .f32⟩
  | .hbm, ⟨2, _⟩ => ⟨S16384x128, .f32⟩
  | .hbm, ⟨3, _⟩ => ⟨S16384x128, .f32⟩
  | .hbm, ⟨4, _⟩ => ⟨S128x16384, .f32⟩
  | .hbm, ⟨5, _⟩ => ⟨S16384x16384, .f32⟩
  | .hbm, ⟨6, _⟩ => ⟨S16384x16384, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384, .f32⟩
  | .hbm, ⟨13, _⟩ => ⟨S16384, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S16384x128 : S_.BroadcastsInDim S16384x128 (![] : Fin 0 → Fin S16384x128.rank)
  transposes_S16384x128_S128x16384_1_0 : S16384x128.Transposes [1, 0] S128x16384
  reducesTo_S16384x16384_S16384_d1 : S16384x16384.ReducesTo [1] S16384
  h_S_ : 0 < S_.numel
  bcast_S_S16384 : S_.BroadcastsInDim S16384 (![] : Fin 0 → Fin S16384.rank)
  reducesTo_S16384_S_d0 : S16384.ReducesTo [0] S_
  dot_S16384x128_S128x16384_S16384x16384_1_0_0_1_n_n_wf : DotDims.WF S16384x128 S128x16384 S16384x16384 [1] [0] [0] [1] [] []

variable [Facts₀]

def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.WordEntryBlocks.lean ====
/-
  (The word-level program: the same text as the idealized one, read at machine words; the argument is the same.)
  The region of the contrastive-loss kernel as its body finds it. The scaled rows zs = z / T reach the kernel as ONE
  array handed to two input windows: window 0 stages the 1024 query rows of grid point t, window 1 stages all 16384
  key rows once; window 2 is the output column of per-row losses. This module names the array contents at the
  region's entry (the launch memory after the four host operations before the call), each window's block read off
  them, and shows that both input windows hold their block whenever the body runs, fetched at that point or not.
-/
import proofs.«122388_j28956669510249_2_alg».proof.Proof.Gen.Kernel.Launch
import proofs.«122388_j28956669510249_2_alg».proof.Proof.Gen.Kernel.Skeleton
import proofs.«122388_j28956669510249_2_alg».proof.Proof.Gen.Kernel.Loops
import proofs.«122388_j28956669510249_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as a valuation of the host operations. -/
abbrev V₀ (c : Dev nD) : Valuation τ sig (Elt F) := fun b => m (c, b)

/-- Core `c`'s buffers when the region is entered: the four host operations before the call have run
    (the constant 0.1, its broadcast, the quotient z / 0.1, the change of format). -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point, for any proof data whose array is the
    entry contents and whose body leaves the block in place. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window is fetched at the first point only; its block index never moves, so its staging buffer holds
    the whole key array at every point. -/
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated. -/
abbrev VO : View sig .tc .vmem S1024x1 .f32 := (Memref.whole cc0_stg2_0 : Memref sig .tc .vmem S1024x1 .f32).view

/-- Each window's current staging memref at point `t`, as the pipeline passes it to the body, and its wholeness. -/
abbrev msQ (t : Fin cfg0.N) : Memref sig .tc .vmem S1024x128 .bf16 := win0_0.stage (cfg0.slots t 0)
abbrev hsQ (t : Fin cfg0.N) : (msQ t).IsWhole := hstage0_0 ((cfg0.slots t 0).cast nbuf0_0)
abbrev msK (t : Fin cfg0.N) : Memref sig .tc .vmem S16384x128 .bf16 := win0_1.stage (cfg0.slots t 1)
abbrev hsK (t : Fin cfg0.N) : (msK t).IsWhole := hstage0_1 ((cfg0.slots t 1).cast nbuf0_1)
abbrev msO (t : Fin cfg0.N) : Memref sig .tc .vmem S1024x1 .f32 := win0_2.stage (cfg0.slots t 2)
abbrev hsO (t : Fin cfg0.N) : (msO t).IsWhole := hstage0_2 ((cfg0.slots t 2).cast nbuf0_2)
/-- The accumulator column: a whole scoped buffer of the kernel's own, passed beside the windows. -/
abbrev accM : Memref sig .tc .vmem S1024x1 .f32 := Memref.whole cc0_scratch0

/-- What the body may use and need not describe between points: the accumulator column at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

end Cert.Kernel.Hand

end
-- ==== Proof.WordBodyRun.lean ====
/-
  (The word-level program: the same text as the idealized one, read at machine words; the argument is the same.)
  The kernel body run once, on any whole staging memrefs: the accumulator column is zeroed, the 1024 query rows are
  loaded, sixteen trips each load 1024 key rows, add the row sums of exp (q · kᵀ) into the accumulator, and finally
  the output column receives 0 - log (acc · 2⁻¹⁴). The run is symbolic; the pieces the output column and the
  accumulator end with are found by the run itself, the loop crossed by its invariant (each trip's piece a function
  of the accumulator's contents before it).
-/
import proofs.«122388_j28956669510249_2_alg».proof.Proof.WordEntryBlocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- What the body's stores leave in the output column's staging memref and in the accumulator, as pieces (last
    first), with the proof that on whole staging memrefs — the two inputs at their contents, the output and the
    accumulator at anything — the body runs to the continuation holding the inputs as they were and the two
    written buffers with their pieces. -/
noncomputable def kernelRun (c : Dev nD) (i : grid0.Coords) (arg1 : Memref sig .tc .vmem S1024x128 .bf16) (harg1 : arg1.IsWhole)
    (arg2 : Memref sig .tc .vmem S16384x128 .bf16) (harg2 : arg2.IsWhole) (arg3 : Memref sig .tc .vmem S1024x1 .f32) (harg3 : arg3.IsWhole)
    (arg4 : Memref sig .tc .vmem S1024x1 .f32) (harg4 : arg4.IsWhole)
    (x0 : Vec F S1024x128 .bf16) (x1 : Vec F S16384x128 .bf16) :
    { L3 : List (View.Piece (Elt F) S1024x1 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (∃ d, owns (c : Thread nD τ) arg4 fullShare d)) -∗ K ⟨⟩))
          ⊢ wp frame (wpE (defs₀ (F := F)) Variants.none c none) E (cc0_kernel i arg1 harg1 arg2 harg2 arg3 harg3 arg4 harg4) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%d3, %f3, -, H3⟩, ⟨%d4, %f4, -, H4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H3]
    · iexists _; iexact H3
    iexists _, _; isplitr
    swap; · iexact H4
    ipureintro; rfl

end Cert.Kernel.Hand

end
-- ==== Proof.WordRegionData.lean ====
/-
  (The word-level program: the same text as the idealized one, read at machine words; the argument is the same.)
  The proof data of the one pipeline: per grid point the output column's staging buffer ends at the read-back of the
  body's pieces (the run's own finds) taken at the point's query block and the key array, both inputs are left as
  found, and between points the body keeps nothing it names (the accumulator is zeroed at every point). The body
  obligation at a generic point follows from the symbolic run.
-/
import proofs.«122388_j28956669510249_2_alg».proof.Proof.WordBodyRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The run's pieces for the output column tile its block (one whole-block store), so they cover it. -/
theorem cover_out (c : Dev nD) (i : grid0.Coords) (arg1 : Memref sig .tc .vmem S1024x128 .bf16) (harg1 : arg1.IsWhole)
    (arg2 : Memref sig .tc .vmem S16384x128 .bf16) (harg2 : arg2.IsWhole) (arg3 : Memref sig .tc .vmem S1024x1 .f32) (harg3 : arg3.IsWhole)
    (arg4 : Memref sig .tc .vmem S1024x1 .f32) (harg4 : arg4.IsWhole)
    (x0 : Vec F S1024x128 .bf16) (x1 : Vec F S16384x128 .bf16) (y : S1024x1.Idx) :
    ∃ pc ∈ (kernelRun c i arg1 harg1 arg2 harg2 arg3 harg3 arg4 harg4 x0 x1).1, y ∈ pc.1.set :=
  View.cover_of_tiledL (kernelRun c i arg1 harg1 arg2 harg2 arg3 harg3 arg4 harg4 x0 x1).1 S1024x1.size (by sl_kernel_rfl) y

/-- What the run leaves in the output column's staging buffer: its pieces read back over junk. -/
def outCol (c : Dev nD) (i : grid0.Coords) (arg1 : Memref sig .tc .vmem S1024x128 .bf16) (harg1 : arg1.IsWhole)
    (arg2 : Memref sig .tc .vmem S16384x128 .bf16) (harg2 : arg2.IsWhole) (arg3 : Memref sig .tc .vmem S1024x1 .f32) (harg3 : arg3.IsWhole)
    (arg4 : Memref sig .tc .vmem S1024x1 .f32) (harg4 : arg4.IsWhole)
    (x0 : Vec F S1024x128 .bf16) (x1 : Vec F S16384x128 .bf16) : Vec F S1024x1 .f32 :=
  VO.read (Elt F) (VO.writes (Elt F) VO.junk (kernelRun c i arg1 harg1 arg2 harg2 arg3 harg3 arg4 harg4 x0 x1).1)

/-- The output column after the body at point `t`: the run's contents at the point's memrefs and input blocks. -/
def outAt (c : Dev nD) (t : Fin cfg0.N) : Vec F S1024x1 .f32 :=
  outCol c (grid0.coords t) (msQ t) (hsQ t) (msK t) (hsK t) (msO t) (hsO t) accM (Memref.isWhole_whole _) (iblk m c 0 t) (iblk m c 1 t)

/-- The proof data on core `c`: the arrays as the region finds them; after the body each input's buffer at its
    block and the output's at `outAt`; between points only the accumulator column at some contents; nothing owed;
    the shared array of scaled rows split in two halves between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_o (c : Dev nD) (t : Fin cfg0.N) : (dats m 0 c).after 2 t = outAt m c t := by dsimp only [dats]

theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (msQ t) fullShare ((dats m 0 c).before 0 t d))
    ∗ (∃ d, owns (c : Thread nD τ) (msK t) fullShare ((dats m 0 c).before 1 t d))
    ∗ (∃ d, owns (c : Thread nD τ) (msO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (msQ t) fullShare ((dats m 0 c).after 0 t)
    ∗ owns (c : Thread nD τ) (msK t) fullShare ((dats m 0 c).after 1 t)
    ∗ owns (c : Thread nD τ) (msO t) fullShare ((dats m 0 c).after 2 t))

/-- The body at any point: the inputs' memrefs hold their blocks, so the run applies; the accumulator column comes
    out of the invariant and goes back into it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k]
  rw [show (dats m 0 c).Φ t.succ = (dats m 0 c).Φ t.castSucc from rfl,
    show (dats m 0 c).owesAt () t.succ = (dats m 0 c).owesAt () t.castSucc from rfl,
    show (dats m 0 c).Φ t.castSucc = Pipeline.scopedRest (Ix := Unit) (Name := ℕ) (U := UR sig nD τ) (Lvl := ℕ) (Val := Elt F) spec0 c from rfl,
    scopedRest_acc, after_q, after_k, after_o]
  unfold outAt
  unfold outCol
  iintro ⟨⟨%ds, HS⟩, Ho, ⟨%d0, H0⟩, ⟨%d1, H1⟩, ⟨%d2, H2⟩⟩
  iapply ((kernelRun c (grid0.coords t) _ _ _ _ _ _ _ _ (iblk m c 0 t) (iblk m c 1 t)).2 Set.univ _)
  isplitl [H0]; · iexact H0
  isplitl [H1]; · iexact H1
  isplitl [H2]; · iexists _; iexact H2
  isplitl [HS]; · iexists _; iexact HS
  iintro ⟨H0, H1, ⟨%e2, H2⟩, HS⟩
  isplitl [HS]; · iexact HS
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.WordMainRun.lean ====
/-
  (The word-level program: the same text as the idealized one, read at machine words; the argument is the same.)
  The whole program run: four host operations compute the scaled rows, the region computes the column of per-row
  losses, five host operations average it. The scaled rows are ONE array read by two input windows, so at the
  region's entry its full share is split in two halves, one per window, and rejoined at the exit; the output column
  is the third window's array at the full share. Every weakly fair execution terminates; the result buffer ends at
  the five closing operations applied to the region's exit contents, and the argument array ends as launched.
-/
import proofs.«122388_j28956669510249_2_alg».proof.Proof.WordRegionData
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through the host operations: the core owing nothing. -/
abbrev R (c : Dev nD) : sProp 𝕄 := iprop(∃ W, owes (c : Thread nD τ) (0 : CellTallies nD τ sig Unit) W)

/-- The column of losses after the last write-back, as the pipeline computes it from the proof data. -/
def lossCol (c : Dev nD) : Buf (Elt F) ((c : Thread nD τ).loc main_v3) := (dats m 0 c).arrAt 2 cfg0.N

/-- Core `c`'s buffers when the region is left: the output column at what the write-backs made it, every other
    buffer as the region found it. -/
def W₁ (c : Dev nD) : Valuation τ sig (Elt F) :=
  Function.update (StableHlo.after hostOps0 (V₀ m c)) (Proc.devRef .tc main_v3) (lossCol m c)

theorem W₁_out (c : Dev nD) : W₁ m c (Proc.devRef .tc main_v3) = lossCol m c := Function.update_self ..

theorem W₁_of_ne (c : Dev nD) (b : Ref sig .tc) (hb : b ≠ main_v3) : W₁ m c (Proc.devRef .tc b) = V m c b :=
  Function.update_of_ne (fun h => hb (Proc.devRef_injective _ h)) ..

omit [FloatOps F] in
/-- The separating conjunction, in the notation the proof mode reads. -/
theorem sep_eq (a b : sProp 𝕄) : BI.sep a b = iprop(a ∗ b) := rfl

/-- The pipeline's arrays, window by window: every array a whole buffer, the scaled rows held in two halves. -/
theorem arrays_eq' (c : Dev nD) (G : (w : Fin cfg0.W) → Buf (Elt F) ((cfg0.win w).arr.view.loc (c.tc : Thread nD τ))) :
    (dats m 0 c).arrays G
      = iprop((((c.tc : Thread nD τ).loc (Pipeline.arrRef spec0 0)) ↦{fullShare.left} G 0)
          ∗ (((c.tc : Thread nD τ).loc (Pipeline.arrRef spec0 1)) ↦{fullShare.right} G 1)
          ∗ (((c.tc : Thread nD τ).loc (Pipeline.arrRef spec0 2)) ↦{fullShare} G 2) : sProp 𝕄) := by
  unfold Dat.arrays
  rw [bigSep_W0]
  rw [(arr_whole0 0).set_eq_univ, (arr_whole0 2).set_eq_univ]
  rfl

omit [FloatOps F] in
/-- The distinct buffers behind the windows' arrays: the scaled rows and the output column. -/
theorem arrBufs_eq' (c : Dev nD) (U : (b : Ref sig .tc) → Buf (Elt F) ((c.tc : Thread nD τ).loc b)) :
    (Pipeline.arrBufs spec0 c U : sProp 𝕄)
      = iprop((((c.tc : Thread nD τ).loc (Pipeline.arrRef spec0 0)) ↦{fullShare} U (Pipeline.arrRef spec0 0))
          ∗ (((c.tc : Thread nD τ).loc (Pipeline.arrRef spec0 2)) ↦{fullShare} U (Pipeline.arrRef spec0 2))) := by
  unfold Pipeline.arrBufs
  rw [show Finset.univ.image (Pipeline.arrRef spec0) = {Pipeline.arrRef spec0 0, Pipeline.arrRef spec0 2} from by decide,
    bigSep_insert (by decide), bigSep_singleton, sep_eq]

theorem W₁_out' (c : Dev nD) : W₁ m c (Proc.devRef .tc (Pipeline.arrRef spec0 2)) = (dats m 0 c).arrAt 2 cfg0.N := W₁_out m c

theorem W₁_rows' (c : Dev nD) : W₁ m c (Proc.devRef .tc (Pipeline.arrRef spec0 0)) = V m c (Pipeline.arrRef spec0 0) :=
  W₁_of_ne m c main_v2 (by decide)

/-- ENTRY: the buffers behind the windows' arrays, whole at the entry contents, are the pipeline's arrays — the
    scaled rows' full share dealt in halves to the query window and the key window. -/
theorem arrays_of_arrBufs (c : Dev nD) :
    (Pipeline.arrBufs spec0 c (V m c) : sProp 𝕄) ⊢ (dats m 0 c).arrays ((dats m 0 c).arrAt · 0) := by
  rw [arrays_eq', arrBufs_eq']
  beta_reduce
  have hA : ∀ w, (dats m 0 c).arrAt w 0 = V m c (Pipeline.arrRef spec0 w) := fun w => A_eq m c w
  rw [hA 0, hA 1, hA 2, show Pipeline.arrRef spec0 1 = Pipeline.arrRef spec0 0 from rfl]
  iintro ⟨H2, H3⟩
  ihave H2' := (pointsTo_share (PosShare.mem_left_op_right fullShare)).1 $$ H2
  icases H2' with ⟨Ha, Hb⟩
  isplitl [Ha]; · iexact Ha
  isplitl [Hb]; · iexact Hb
  iexact H3

/-- EXIT: the two halves of the scaled rows, unchanged, rejoin; the output column is at its final contents. -/
theorem arrBufs_of_arrays (c : Dev nD) :
    (dats m 0 c).arrays ((dats m 0 c).arrAt · cfg0.N) ⊢ (Pipeline.arrBufs spec0 c (fun b => W₁ m c (Proc.devRef .tc b)) : sProp 𝕄) := by
  rw [arrays_eq', arrBufs_eq']
  beta_reduce
  rw [W₁_out', W₁_rows', (dats m 0 c).arrAt_in 0 rfl, (dats m 0 c).arrAt_in 1 rfl, A_eq m c 0, A_eq m c 1,
    show Pipeline.arrRef spec0 1 = Pipeline.arrRef spec0 0 from rfl]
  iintro ⟨Ha, Hb, H3⟩
  isplitr [H3]
  · iapply (pointsTo_share (PosShare.mem_left_op_right fullShare)).2
    isplitl [Ha]; · iexact Ha
    iexact Hb
  iexact H3

/-- The buffers that bypass the region are untouched by it. -/
theorem unscopedRest_W₁ (c : Dev nD) :
    (Pipeline.unscopedRest spec0 c (fun b => W₁ m c (Proc.devRef .tc b)) : sProp 𝕄) = Pipeline.unscopedRest spec0 c (V m c) := by
  unfold Pipeline.unscopedRest
  refine bigSep_congr fun b hb => ?_
  beta_reduce
  rw [W₁_of_ne m c b (fun h => (Finset.mem_sdiff.mp hb).2 (Finset.mem_image.mpr ⟨2, Finset.mem_univ _, h.symm⟩))]

/-- The four host operations before the call. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The five host operations after the call. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W₁ m) R

set_option backward.isDefEq.respectTransparency.types false in
/-- THE REGION: entered from what the first host operations left, left with the output column at its final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W₁ m c) ∗ R c)
  X c := iprop(emp)
  Y c := iprop(emp)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c)]
    iintro ⟨⟨⟨Ha, Hr⟩, HO⟩, -, -⟩
    ihave Ha' := (arrays_of_arrBufs m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last (Pipeline.pin (pcfgs (F := F)) adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (W₁ m c) = unscopedBufs c (fun b => W₁ m c (Proc.devRef .tc b)) from (Pipeline.unscopedBufs_held c _).symm,
      Pipeline.unscopedBufs_split₀ cfgs 0 winFacts₀0.arr_unscoped c, unscopedRest_W₁]
    iintro ⟨Ha, HO, -, HZ⟩
    ihave Ha' := (arrBufs_of_arrays m c) $$ Ha
    imodintro
    isplitr [HO]
    · isplitl [Ha']; · iexact Ha'
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The argument array is written by no host operation and is no window's array: it ends as launched. -/
theorem tail_arg0 (c : Dev nD) :
    StableHlo.after hostOps1 (W₁ m c) (Proc.devRef .tc main_arg0) = m ((c : Thread nD τ).loc main_arg0) := by
  rw [StableHlo.after_of_forall_not_mem (b := Proc.devRef .tc main_arg0) hostOps1 (W₁ m c) (by
      intro op hop
      simp only [List.mem_cons, List.mem_nil_iff, or_false] at hop
      rcases hop with rfl | rfl | rfl | rfl | rfl <;>
        simp only [StableHlo.reshape_writes, StableHlo.unary_writes, StableHlo.binary_writes, StableHlo.nullary_writes, Finset.mem_singleton] <;>
        exact StableHlo.devRef_ne_of_ne (by decide)),
    W₁_of_ne m c main_arg0 (by decide)]
  exact StableHlo.after_of_forall_not_mem (b := Proc.devRef .tc main_arg0) hostOps0 (V₀ m c) (by
      intro op hop
      simp only [List.mem_cons, List.mem_nil_iff, or_false] at hop
      rcases hop with rfl | rfl | rfl | rfl <;>
        simp only [StableHlo.unary_writes, StableHlo.binary_writes, StableHlo.nullary_writes, Finset.mem_singleton] <;>
        exact StableHlo.devRef_ne_of_ne (by decide))

set_option backward.isDefEq.respectTransparency.types false in
/-- At the compiled mesh, from any memory with zero counters: every weakly fair execution of @main terminates,
    nothing faulting; the result ends at the closing host operations applied to the region's exit contents, and
    the argument array ends as launched. -/
theorem run_main : θ_run defs (onTc (τ := τ) (main (F := F))) ⟨m, fun _ => 0, ρ⟩ (fun r => ∀ c : Dev nD,
      r.2.mem ((c.tc : Thread nD τ).loc main_v6) = StableHlo.after hostOps1 (W₁ m c) (Proc.devRef .tc main_v6)
      ∧ r.2.mem ((c.tc : Thread nD τ).loc main_arg0) = m ((c.tc : Thread nD τ).loc main_arg0)) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (W₁ m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v6) = StableHlo.after hostOps1 (W₁ m c) (Proc.devRef .tc main_v6)
      ∧ s.mem ((c.tc : Thread nD τ).loc main_arg0) = m ((c.tc : Thread nD τ).loc main_arg0))
    (hfin := fun c s' => by
      unfold StableHlo.held
      iintro ⟨Hh, HSI⟩
      ihave Hr := (pointsTo_read_all (Pipeline.ucRefs τ sig) (fun b => ((c.tc : Thread nD τ).1, b)) (StableHlo.after hostOps1 (W₁ m c)) s') $$ [Hh HSI]
      · isplitl [Hh] <;> iassumption
      icases Hr with ⟨%hr, HSI⟩
      imodintro
      isplitr; swap; · iexact HSI
      ipureintro
      exact ⟨hr (Proc.devRef .tc main_v6) (by decide), (hr (Proc.devRef .tc main_arg0) (by decide)).trans (tail_arg0 m c)⟩)
    (hQ := fun _ h => h)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.EntryBlocks.lean ====
/-
  The region of the contrastive-loss kernel as its body finds it. The scaled rows zs = z / T reach the kernel as ONE
  array handed to two input windows: window 0 stages the 1024 query rows of grid point t, window 1 stages all 16384
  key rows once; window 2 is the output column of per-row losses. This module names the array contents at the
  region's entry (the launch memory after the four host operations before the call), each window's block read off
  them, and shows that both input windows hold their block whenever the body runs, fetched at that point or not.
-/
import proofs.«122388_j28956669510249_2_alg».proof.Proof.Gen.KernelIdeal.Launch
import proofs.«122388_j28956669510249_2_alg».proof.Proof.Gen.KernelIdeal.Skeleton
import proofs.«122388_j28956669510249_2_alg».proof.Proof.Gen.KernelIdeal.Loops
import proofs.«122388_j28956669510249_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as a valuation of the host operations. -/
abbrev V₀ (c : Dev nD) : Valuation τ sig (Elt F) := fun b => m (c, b)

/-- Core `c`'s buffers when the region is entered: the four host operations before the call have run
    (the constant 0.1, its broadcast, the quotient z / 0.1, the change of format). -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point, for any proof data whose array is the
    entry contents and whose body leaves the block in place. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window is fetched at the first point only; its block index never moves, so its staging buffer holds
    the whole key array at every point. -/
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated. -/
abbrev VO : View sig .tc .vmem S1024x1 .f32 := (Memref.whole cc0_stg2_0 : Memref sig .tc .vmem S1024x1 .f32).view

/-- Each window's current staging memref at point `t`, as the pipeline passes it to the body, and its wholeness. -/
abbrev msQ (t : Fin cfg0.N) : Memref sig .tc .vmem S1024x128 .bf16 := win0_0.stage (cfg0.slots t 0)
abbrev hsQ (t : Fin cfg0.N) : (msQ t).IsWhole := hstage0_0 ((cfg0.slots t 0).cast nbuf0_0)
abbrev msK (t : Fin cfg0.N) : Memref sig .tc .vmem S16384x128 .bf16 := win0_1.stage (cfg0.slots t 1)
abbrev hsK (t : Fin cfg0.N) : (msK t).IsWhole := hstage0_1 ((cfg0.slots t 1).cast nbuf0_1)
abbrev msO (t : Fin cfg0.N) : Memref sig .tc .vmem S1024x1 .f32 := win0_2.stage (cfg0.slots t 2)
abbrev hsO (t : Fin cfg0.N) : (msO t).IsWhole := hstage0_2 ((cfg0.slots t 2).cast nbuf0_2)
/-- The accumulator column: a whole scoped buffer of the kernel's own, passed beside the windows. -/
abbrev accM : Memref sig .tc .vmem S1024x1 .f32 := Memref.whole cc0_scratch0

/-- What the body may use and need not describe between points: the accumulator column at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

end Cert.KernelIdeal.Hand

end
-- ==== Proof.BodyRun.lean ====
/-
  The kernel body run once, on any whole staging memrefs: the accumulator column is zeroed, the 1024 query rows are
  loaded, sixteen trips each load 1024 key rows, add the row sums of exp (q · kᵀ) into the accumulator, and finally
  the output column receives 0 - log (acc · 2⁻¹⁴). The run is symbolic; the pieces the output column and the
  accumulator end with are found by the run itself, the loop crossed by its invariant (each trip's piece a function
  of the accumulator's contents before it).
-/
import proofs.«122388_j28956669510249_2_alg».proof.Proof.EntryBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- What the body's stores leave in the output column's staging memref and in the accumulator, as pieces (last
    first), with the proof that on whole staging memrefs — the two inputs at their contents, the output and the
    accumulator at anything — the body runs to the continuation holding the inputs as they were and the two
    written buffers with their pieces. -/
noncomputable def kernelRun (c : Dev nD) (i : grid0.Coords) (arg1 : Memref sig .tc .vmem S1024x128 .bf16) (harg1 : arg1.IsWhole)
    (arg2 : Memref sig .tc .vmem S16384x128 .bf16) (harg2 : arg2.IsWhole) (arg3 : Memref sig .tc .vmem S1024x1 .f32) (harg3 : arg3.IsWhole)
    (arg4 : Memref sig .tc .vmem S1024x1 .f32) (harg4 : arg4.IsWhole)
    (x0 : Vec F S1024x128 .bf16) (x1 : Vec F S16384x128 .bf16) :
    { L3 : List (View.Piece (Elt F) S1024x1 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L3)
                ∗ (∃ d, owns (c : Thread nD τ) arg4 fullShare d)) -∗ K ⟨⟩))
          ⊢ wp frame (wpE (defs₀ (F := F)) Variants.none c none) E (cc0_kernel i arg1 harg1 arg2 harg2 arg3 harg3 arg4 harg4) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%d3, %f3, -, H3⟩, ⟨%d4, %f4, -, H4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H3]
    · iexists _; iexact H3
    iexists _, _; isplitr
    swap; · iexact H4
    ipureintro; rfl

end Cert.KernelIdeal.Hand

end
-- ==== Proof.RegionData.lean ====
/-
  The proof data of the one pipeline: per grid point the output column's staging buffer ends at the read-back of the
  body's pieces (the run's own finds) taken at the point's query block and the key array, both inputs are left as
  found, and between points the body keeps nothing it names (the accumulator is zeroed at every point). The body
  obligation at a generic point follows from the symbolic run.
-/
import proofs.«122388_j28956669510249_2_alg».proof.Proof.BodyRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The run's pieces for the output column tile its block (one whole-block store), so they cover it. -/
theorem cover_out (c : Dev nD) (i : grid0.Coords) (arg1 : Memref sig .tc .vmem S1024x128 .bf16) (harg1 : arg1.IsWhole)
    (arg2 : Memref sig .tc .vmem S16384x128 .bf16) (harg2 : arg2.IsWhole) (arg3 : Memref sig .tc .vmem S1024x1 .f32) (harg3 : arg3.IsWhole)
    (arg4 : Memref sig .tc .vmem S1024x1 .f32) (harg4 : arg4.IsWhole)
    (x0 : Vec F S1024x128 .bf16) (x1 : Vec F S16384x128 .bf16) (y : S1024x1.Idx) :
    ∃ pc ∈ (kernelRun c i arg1 harg1 arg2 harg2 arg3 harg3 arg4 harg4 x0 x1).1, y ∈ pc.1.set :=
  View.cover_of_tiledL (kernelRun c i arg1 harg1 arg2 harg2 arg3 harg3 arg4 harg4 x0 x1).1 S1024x1.size (by sl_kernel_rfl) y

/-- What the run leaves in the output column's staging buffer: its pieces read back over junk. -/
def outCol (c : Dev nD) (i : grid0.Coords) (arg1 : Memref sig .tc .vmem S1024x128 .bf16) (harg1 : arg1.IsWhole)
    (arg2 : Memref sig .tc .vmem S16384x128 .bf16) (harg2 : arg2.IsWhole) (arg3 : Memref sig .tc .vmem S1024x1 .f32) (harg3 : arg3.IsWhole)
    (arg4 : Memref sig .tc .vmem S1024x1 .f32) (harg4 : arg4.IsWhole)
    (x0 : Vec F S1024x128 .bf16) (x1 : Vec F S16384x128 .bf16) : Vec F S1024x1 .f32 :=
  VO.read (Elt F) (VO.writes (Elt F) VO.junk (kernelRun c i arg1 harg1 arg2 harg2 arg3 harg3 arg4 harg4 x0 x1).1)

/-- The output column after the body at point `t`: the run's contents at the point's memrefs and input blocks. -/
def outAt (c : Dev nD) (t : Fin cfg0.N) : Vec F S1024x1 .f32 :=
  outCol c (grid0.coords t) (msQ t) (hsQ t) (msK t) (hsK t) (msO t) (hsO t) accM (Memref.isWhole_whole _) (iblk m c 0 t) (iblk m c 1 t)

/-- The proof data on core `c`: the arrays as the region finds them; after the body each input's buffer at its
    block and the output's at `outAt`; between points only the accumulator column at some contents; nothing owed;
    the shared array of scaled rows split in two halves between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_o (c : Dev nD) (t : Fin cfg0.N) : (dats m 0 c).after 2 t = outAt m c t := by dsimp only [dats]

theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (msQ t) fullShare ((dats m 0 c).before 0 t d))
    ∗ (∃ d, owns (c : Thread nD τ) (msK t) fullShare ((dats m 0 c).before 1 t d))
    ∗ (∃ d, owns (c : Thread nD τ) (msO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (msQ t) fullShare ((dats m 0 c).after 0 t)
    ∗ owns (c : Thread nD τ) (msK t) fullShare ((dats m 0 c).after 1 t)
    ∗ owns (c : Thread nD τ) (msO t) fullShare ((dats m 0 c).after 2 t))

/-- The body at any point: the inputs' memrefs hold their blocks, so the run applies; the accumulator column comes
    out of the invariant and goes back into it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k]
  rw [show (dats m 0 c).Φ t.succ = (dats m 0 c).Φ t.castSucc from rfl,
    show (dats m 0 c).owesAt () t.succ = (dats m 0 c).owesAt () t.castSucc from rfl,
    show (dats m 0 c).Φ t.castSucc = Pipeline.scopedRest (Ix := Unit) (Name := ℕ) (U := UR sig nD τ) (Lvl := ℕ) (Val := Elt F) spec0 c from rfl,
    scopedRest_acc, after_q, after_k, after_o]
  unfold outAt
  unfold outCol
  iintro ⟨⟨%ds, HS⟩, Ho, ⟨%d0, H0⟩, ⟨%d1, H1⟩, ⟨%d2, H2⟩⟩
  iapply ((kernelRun c (grid0.coords t) _ _ _ _ _ _ _ _ (iblk m c 0 t) (iblk m c 1 t)).2 Set.univ _)
  isplitl [H0]; · iexact H0
  isplitl [H1]; · iexact H1
  isplitl [H2]; · iexists _; iexact H2
  isplitl [HS]; · iexists _; iexact HS
  iintro ⟨H0, H1, ⟨%e2, H2⟩, HS⟩
  isplitl [HS]; · iexact HS
  isplitl [Ho]; · iexact Ho
  isplitl [H0]; · iexact H0
  isplitl [H1]; · iexact H1
  unfold owns; iexists _; isplitr
  swap; · iexact H2
  ipureintro; exact View.read_writes_of_cover _ _ _ _ _ (cover_out c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.MainRun.lean ====
/-
  The whole program run: four host operations compute the scaled rows, the region computes the column of per-row
  losses, five host operations average it. The scaled rows are ONE array read by two input windows, so at the
  region's entry its full share is split in two halves, one per window, and rejoined at the exit; the output column
  is the third window's array at the full share. Every weakly fair execution terminates; the result buffer ends at
  the five closing operations applied to the region's exit contents, and the argument array ends as launched.
-/
import proofs.«122388_j28956669510249_2_alg».proof.Proof.RegionData
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through the host operations: the core owing nothing. -/
abbrev R (c : Dev nD) : sProp 𝕄 := iprop(∃ W, owes (c : Thread nD τ) (0 : CellTallies nD τ sig Unit) W)

/-- The column of losses after the last write-back, as the pipeline computes it from the proof data. -/
def lossCol (c : Dev nD) : Buf (Elt F) ((c : Thread nD τ).loc main_v3) := (dats m 0 c).arrAt 2 cfg0.N

/-- Core `c`'s buffers when the region is left: the output column at what the write-backs made it, every other
    buffer as the region found it. -/
def W₁ (c : Dev nD) : Valuation τ sig (Elt F) :=
  Function.update (StableHlo.after hostOps0 (V₀ m c)) (Proc.devRef .tc main_v3) (lossCol m c)

theorem W₁_out (c : Dev nD) : W₁ m c (Proc.devRef .tc main_v3) = lossCol m c := Function.update_self ..

theorem W₁_of_ne (c : Dev nD) (b : Ref sig .tc) (hb : b ≠ main_v3) : W₁ m c (Proc.devRef .tc b) = V m c b :=
  Function.update_of_ne (fun h => hb (Proc.devRef_injective _ h)) ..

omit [FloatOps F] in
/-- The separating conjunction, in the notation the proof mode reads. -/
theorem sep_eq (a b : sProp 𝕄) : BI.sep a b = iprop(a ∗ b) := rfl

/-- The pipeline's arrays, window by window: every array a whole buffer, the scaled rows held in two halves. -/
theorem arrays_eq' (c : Dev nD) (G : (w : Fin cfg0.W) → Buf (Elt F) ((cfg0.win w).arr.view.loc (c.tc : Thread nD τ))) :
    (dats m 0 c).arrays G
      = iprop((((c.tc : Thread nD τ).loc (Pipeline.arrRef spec0 0)) ↦{fullShare.left} G 0)
          ∗ (((c.tc : Thread nD τ).loc (Pipeline.arrRef spec0 1)) ↦{fullShare.right} G 1)
          ∗ (((c.tc : Thread nD τ).loc (Pipeline.arrRef spec0 2)) ↦{fullShare} G 2) : sProp 𝕄) := by
  unfold Dat.arrays
  rw [bigSep_W0]
  rw [(arr_whole0 0).set_eq_univ, (arr_whole0 2).set_eq_univ]
  rfl

omit [FloatOps F] in
/-- The distinct buffers behind the windows' arrays: the scaled rows and the output column. -/
theorem arrBufs_eq' (c : Dev nD) (U : (b : Ref sig .tc) → Buf (Elt F) ((c.tc : Thread nD τ).loc b)) :
    (Pipeline.arrBufs spec0 c U : sProp 𝕄)
      = iprop((((c.tc : Thread nD τ).loc (Pipeline.arrRef spec0 0)) ↦{fullShare} U (Pipeline.arrRef spec0 0))
          ∗ (((c.tc : Thread nD τ).loc (Pipeline.arrRef spec0 2)) ↦{fullShare} U (Pipeline.arrRef spec0 2))) := by
  unfold Pipeline.arrBufs
  rw [show Finset.univ.image (Pipeline.arrRef spec0) = {Pipeline.arrRef spec0 0, Pipeline.arrRef spec0 2} from by decide,
    bigSep_insert (by decide), bigSep_singleton, sep_eq]

theorem W₁_out' (c : Dev nD) : W₁ m c (Proc.devRef .tc (Pipeline.arrRef spec0 2)) = (dats m 0 c).arrAt 2 cfg0.N := W₁_out m c

theorem W₁_rows' (c : Dev nD) : W₁ m c (Proc.devRef .tc (Pipeline.arrRef spec0 0)) = V m c (Pipeline.arrRef spec0 0) :=
  W₁_of_ne m c main_v2 (by decide)

/-- ENTRY: the buffers behind the windows' arrays, whole at the entry contents, are the pipeline's arrays — the
    scaled rows' full share dealt in halves to the query window and the key window. -/
theorem arrays_of_arrBufs (c : Dev nD) :
    (Pipeline.arrBufs spec0 c (V m c) : sProp 𝕄) ⊢ (dats m 0 c).arrays ((dats m 0 c).arrAt · 0) := by
  rw [arrays_eq', arrBufs_eq']
  beta_reduce
  have hA : ∀ w, (dats m 0 c).arrAt w 0 = V m c (Pipeline.arrRef spec0 w) := fun w => A_eq m c w
  rw [hA 0, hA 1, hA 2, show Pipeline.arrRef spec0 1 = Pipeline.arrRef spec0 0 from rfl]
  iintro ⟨H2, H3⟩
  ihave H2' := (pointsTo_share (PosShare.mem_left_op_right fullShare)).1 $$ H2
  icases H2' with ⟨Ha, Hb⟩
  isplitl [Ha]; · iexact Ha
  isplitl [Hb]; · iexact Hb
  iexact H3

/-- EXIT: the two halves of the scaled rows, unchanged, rejoin; the output column is at its final contents. -/
theorem arrBufs_of_arrays (c : Dev nD) :
    (dats m 0 c).arrays ((dats m 0 c).arrAt · cfg0.N) ⊢ (Pipeline.arrBufs spec0 c (fun b => W₁ m c (Proc.devRef .tc b)) : sProp 𝕄) := by
  rw [arrays_eq', arrBufs_eq']
  beta_reduce
  rw [W₁_out', W₁_rows', (dats m 0 c).arrAt_in 0 rfl, (dats m 0 c).arrAt_in 1 rfl, A_eq m c 0, A_eq m c 1,
    show Pipeline.arrRef spec0 1 = Pipeline.arrRef spec0 0 from rfl]
  iintro ⟨Ha, Hb, H3⟩
  isplitr [H3]
  · iapply (pointsTo_share (PosShare.mem_left_op_right fullShare)).2
    isplitl [Ha]; · iexact Ha
    iexact Hb
  iexact H3

/-- The buffers that bypass the region are untouched by it. -/
theorem unscopedRest_W₁ (c : Dev nD) :
    (Pipeline.unscopedRest spec0 c (fun b => W₁ m c (Proc.devRef .tc b)) : sProp 𝕄) = Pipeline.unscopedRest spec0 c (V m c) := by
  unfold Pipeline.unscopedRest
  refine bigSep_congr fun b hb => ?_
  beta_reduce
  rw [W₁_of_ne m c b (fun h => (Finset.mem_sdiff.mp hb).2 (Finset.mem_image.mpr ⟨2, Finset.mem_univ _, h.symm⟩))]

/-- The four host operations before the call. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The five host operations after the call. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W₁ m) R

set_option backward.isDefEq.respectTransparency.types false in
/-- THE REGION: entered from what the first host operations left, left with the output column at its final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (W₁ m c) ∗ R c)
  X c := iprop(emp)
  Y c := iprop(emp)
  Z c := Pipeline.unscopedRest spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c)]
    iintro ⟨⟨⟨Ha, Hr⟩, HO⟩, -, -⟩
    ihave Ha' := (arrays_of_arrBufs m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last (Pipeline.pin (pcfgs (F := F)) adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (W₁ m c) = unscopedBufs c (fun b => W₁ m c (Proc.devRef .tc b)) from (Pipeline.unscopedBufs_held c _).symm,
      Pipeline.unscopedBufs_split₀ cfgs 0 winFacts₀0.arr_unscoped c, unscopedRest_W₁]
    iintro ⟨Ha, HO, -, HZ⟩
    ihave Ha' := (arrBufs_of_arrays m c) $$ Ha
    imodintro
    isplitr [HO]
    · isplitl [Ha']; · iexact Ha'
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The argument array is written by no host operation and is no window's array: it ends as launched. -/
theorem tail_arg0 (c : Dev nD) :
    StableHlo.after hostOps1 (W₁ m c) (Proc.devRef .tc main_arg0) = m ((c : Thread nD τ).loc main_arg0) := by
  rw [StableHlo.after_of_forall_not_mem (b := Proc.devRef .tc main_arg0) hostOps1 (W₁ m c) (by
      intro op hop
      simp only [List.mem_cons, List.mem_nil_iff, or_false] at hop
      rcases hop with rfl | rfl | rfl | rfl | rfl <;>
        simp only [StableHlo.reshape_writes, StableHlo.unary_writes, StableHlo.binary_writes, StableHlo.nullary_writes, Finset.mem_singleton] <;>
        exact StableHlo.devRef_ne_of_ne (by decide)),
    W₁_of_ne m c main_arg0 (by decide)]
  exact StableHlo.after_of_forall_not_mem (b := Proc.devRef .tc main_arg0) hostOps0 (V₀ m c) (by
      intro op hop
      simp only [List.mem_cons, List.mem_nil_iff, or_false] at hop
      rcases hop with rfl | rfl | rfl | rfl <;>
        simp only [StableHlo.unary_writes, StableHlo.binary_writes, StableHlo.nullary_writes, Finset.mem_singleton] <;>
        exact StableHlo.devRef_ne_of_ne (by decide))

set_option backward.isDefEq.respectTransparency.types false in
/-- At the compiled mesh, from any memory with zero counters: every weakly fair execution of @main terminates,
    nothing faulting; the result ends at the closing host operations applied to the region's exit contents, and
    the argument array ends as launched. -/
theorem run_main : θ_run defs (onTc (τ := τ) (main (F := F))) ⟨m, fun _ => 0, ρ⟩ (fun r => ∀ c : Dev nD,
      r.2.mem ((c.tc : Thread nD τ).loc main_v6) = StableHlo.after hostOps1 (W₁ m c) (Proc.devRef .tc main_v6)
      ∧ r.2.mem ((c.tc : Thread nD τ).loc main_arg0) = m ((c.tc : Thread nD τ).loc main_arg0)) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (W₁ m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v6) = StableHlo.after hostOps1 (W₁ m c) (Proc.devRef .tc main_v6)
      ∧ s.mem ((c.tc : Thread nD τ).loc main_arg0) = m ((c.tc : Thread nD τ).loc main_arg0))
    (hfin := fun c s' => by
      unfold StableHlo.held
      iintro ⟨Hh, HSI⟩
      ihave Hr := (pointsTo_read_all (Pipeline.ucRefs τ sig) (fun b => ((c.tc : Thread nD τ).1, b)) (StableHlo.after hostOps1 (W₁ m c)) s') $$ [Hh HSI]
      · isplitl [Hh] <;> iassumption
      icases Hr with ⟨%hr, HSI⟩
      imodintro
      isplitr; swap; · iexact HSI
      ipureintro
      exact ⟨hr (Proc.devRef .tc main_v6) (by decide), (hr (Proc.devRef .tc main_arg0) (by decide)).trans (tail_arg0 m c)⟩)
    (hQ := fun _ h => h)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.BlockValue.lean ====
/-
  The value the body leaves in the output column, as a recursion over the sixteen trips of its loop. Trip k loads
  key rows 1024·k … 1024·k + 1023, reads the accumulator column back, and stores the accumulator plus the row sums
  of exp (q · kᵀ) over the whole column; the column is zeroed before the first trip, and after the last one the
  output receives 0 - log (acc · 2⁻¹⁴). Each trip's one piece is a store over the whole column, so what the column
  holds after k trips is the k-fold recursion on the trip payload from the zero column, whatever lay under it.
-/
import proofs.«122388_j28956669510249_2_alg».proof.Proof.RegionData
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 access, as the constant function. -/
theorem hz2 : (![0, 0] : Fin 2 → Nat) = fun _ => 0 := funext fun a => by fin_cases a <;> rfl

/-- The loop runs sixteen trips. -/
theorem trips_eq : k0_t1_loop.trips = 16 := by decide +kernel

/-- The 1024 key rows trip `k` loads: rows 1024·k … 1024·k + 1023 of the key array. -/
def keyChunk (x1 : Vec F S16384x128 .bf16) (k : Fin k0_t1_loop.trips) : Vec F S1024x128 .bf16 :=
  View.ld x1 (Rect.unit (s := S16384x128) (k0_off1 k) S1024x128.size (k0_off1_inb k))

/-- Row `l` of trip `k`'s chunk is row 1024·k + l of the key array. -/
theorem keyChunk_apply (x1 : Vec F S16384x128 .bf16) (k : Fin k0_t1_loop.trips) (l : Fin 1024) (d : Fin 128) :
    keyChunk x1 k (ValueIdx.ix2 l d)
      = x1 (ValueIdx.ix2 ⟨1024 * k.val + l.val, by have hk : k.val < 16 := Nat.lt_of_lt_of_le k.isLt k0_t1_abs.2.1; have := l.isLt; omega⟩ d) := by
  unfold keyChunk View.ld
  congr 1
  funext a
  apply Fin.ext
  match a with
  | ⟨0, _⟩ =>
    show k0_off1 k 0 + 1 * l.val = 1024 * k.val + l.val
    rw [k0_off1_eq]; show 1024 * k.val + 1 * l.val = _; omega
  | ⟨1, _⟩ =>
    show k0_off1 k 1 + 1 * d.val = d.val
    rw [k0_off1_eq]; show 0 + 1 * d.val = _; omega

/-- The accumulator column after `k` trips: the zero column, then one trip payload per trip over the query rows,
    the trip's key rows and the column before it. -/
def accAt (x0 : Vec F S1024x128 .bf16) (x1 : Vec F S16384x128 .bf16) : ℕ → FVec F S1024x1 .f32
  | 0 => k0_pay1
  | k + 1 => if h : k < k0_t1_loop.trips then k0_pay2 x0 (keyChunk x1 ⟨k, h⟩) (accAt x0 x1 k) else accAt x0 x1 k

theorem accAt_zero (x0 : Vec F S1024x128 .bf16) (x1 : Vec F S16384x128 .bf16) : accAt x0 x1 0 = k0_pay1 := rfl

theorem accAt_succ (x0 : Vec F S1024x128 .bf16) (x1 : Vec F S16384x128 .bf16) (k : Fin k0_t1_loop.trips) :
    accAt x0 x1 (k.val + 1) = k0_pay2 x0 (keyChunk x1 k) (accAt x0 x1 k.val) := by
  rw [accAt.eq_2]; exact dif_pos k.isLt

/-- One trip's pieces, whatever the accumulator holds: ONE store over the whole column of the trip payload of the
    query rows, the trip's load of the key array and the column read back. -/
theorem trip_piece (𝒱 : Variants) (bd : Option 𝒱.V) (c : Dev nD) (i : grid0.Coords) (arg1 : Memref sig .tc .vmem S1024x128 .bf16) (harg1 : arg1.IsWhole)
    (arg2 : Memref sig .tc .vmem S16384x128 .bf16) (harg2 : arg2.IsWhole) (arg3 : Memref sig .tc .vmem S1024x1 .f32) (harg3 : arg3.IsWhole)
    (arg4 : Memref sig .tc .vmem S1024x1 .f32) (harg4 : arg4.IsWhole)
    (v4 : Vec F S1024x128 .bf16) (X_arg2 : BufTy.Contents (Elt F) arg2.view.ty) (k : Fin k0_t1_loop.trips)
    (f : BufTy.Contents (Elt F) arg4.view.ty) :
    tripL_k0_t1 (F := F) 𝒱 c bd i arg1 harg1 arg2 harg2 arg3 harg3 arg4 harg4 v4 X_arg2 k f
      = [⟨Rect.unit (s := S1024x1) ![0, 0] S1024x1.size inb_S1024x1_S1024x1_0_0,
          k0_pay2 v4 (View.readAt (Elt F) arg2.view (Rect.unit (s := S16384x128) (k0_off1 k) S1024x128.size (k0_off1_inb k)).toLoadRect X_arg2)
            (View.readAt (Elt F) arg4.view (Rect.unit (s := S1024x1) ![0, 0] S1024x1.size inb_S1024x1_S1024x1_0_0).toLoadRect f)⟩] := by
  unfold tripL_k0_t1 trip_k0_t1
  rfl

/-- A store over the whole column, last, is what the column reads, whatever lay under it. -/
theorem read_cons_col {κ : Kind} {sp : Space} (v : View sig κ sp S1024x1 .f32) (g : v.ty.Contents (Elt F))
    (w : S1024x1.Idx → Elt F .f32) (L : List (View.Piece (Elt F) S1024x1 .f32)) :
    v.read (Elt F) (v.writes (Elt F) g (⟨Rect.unit (s := S1024x1) ![0, 0] S1024x1.size inb_S1024x1_S1024x1_0_0, w⟩ :: L)) = w := by
  rw [View.read_writes_eq_canon _ _ _ (fun y => ⟨_, List.mem_cons_self, View.mem_set_unit_zero hz2 inb_S1024x1_S1024x1_0_0 y⟩),
    View.canon_cons_unit_zero hz2]

/-- After `k` trips from a zeroed column the accumulator reads the `k`-fold recursion: each trip's one piece covers
    the column, and its payload reads the column the earlier trips left. -/
theorem acc_after (c : Dev nD) (i : grid0.Coords) (arg1 : Memref sig .tc .vmem S1024x128 .bf16) (harg1 : arg1.IsWhole)
    (arg2 : Memref sig .tc .vmem S16384x128 .bf16) (harg2 : arg2.IsWhole) (arg3 : Memref sig .tc .vmem S1024x1 .f32) (harg3 : arg3.IsWhole)
    (arg4 : Memref sig .tc .vmem S1024x1 .f32) (harg4 : arg4.IsWhole)
    (x0 : Vec F S1024x128 .bf16) (x1 : Vec F S16384x128 .bf16) (G : BufTy.Contents (Elt F) arg4.view.ty)
    (hG : arg4.view.read (Elt F) G = k0_pay1) :
    ∀ k, k ≤ k0_t1_loop.trips →
      arg4.view.read (Elt F) (arg4.view.writes (Elt F) G
        (pb_k0_t1 (F := F) Variants.none c none i arg1 harg1 arg2 harg2 arg3 harg3 arg4 harg4 x0 (harg2.unread x1) G k))
        = accAt x0 x1 k
  | 0, _ => by
    rw [pb_k0_t1.eq_1, View.writes_nil, hG]; rfl
  | k + 1, h => by
    have hk : k < k0_t1_loop.trips := h
    have e := pb_k0_t1_succ (F := F) Variants.none c none i arg1 harg1 arg2 harg2 arg3 harg3 arg4 harg4 x0 (harg2.unread x1) G ⟨k, hk⟩
    dsimp only at e
    rw [e, trip_piece, List.singleton_append, read_cons_col, View.readAt_eq_ld, View.readAt_eq_ld, harg2.read_unread,
      View.ld_unit_zero hz2, acc_after c i arg1 harg1 arg2 harg2 arg3 harg3 arg4 harg4 x0 x1 G hG k (Nat.le_of_lt hk)]
    exact (accAt_succ x0 x1 ⟨k, hk⟩).symm

/-- The run's pieces for the output column: ONE store over the whole column of the final payload of the accumulator
    read back after the loop's trips over the zeroed column. -/
theorem kernelRun_pieces (c : Dev nD) (i : grid0.Coords) (arg1 : Memref sig .tc .vmem S1024x128 .bf16) (harg1 : arg1.IsWhole)
    (arg2 : Memref sig .tc .vmem S16384x128 .bf16) (harg2 : arg2.IsWhole) (arg3 : Memref sig .tc .vmem S1024x1 .f32) (harg3 : arg3.IsWhole)
    (arg4 : Memref sig .tc .vmem S1024x1 .f32) (harg4 : arg4.IsWhole)
    (x0 : Vec F S1024x128 .bf16) (x1 : Vec F S16384x128 .bf16) :
    (kernelRun (F := F) c i arg1 harg1 arg2 harg2 arg3 harg3 arg4 harg4 x0 x1).1
      = [⟨Rect.unit (s := S1024x1) ![0, 0] S1024x1.size inb_S1024x1_S1024x1_0_0,
          k0_pay3 (View.readAt (Elt F) arg4.view (Rect.unit (s := S1024x1) ![0, 0] S1024x1.size inb_S1024x1_S1024x1_0_0).toLoadRect
            (arg4.view.writes (Elt F) arg4.view.junk
              (pb_k0_t1 (F := F) Variants.none c none i arg1 harg1 arg2 harg2 arg3 harg3 arg4 harg4
                  (View.readAt (Elt F) arg1.view (Rect.unit (s := S1024x128) ![0, 0] S1024x128.size inb_S1024x128_S1024x128_0_0).toLoadRect (harg1.unread x0))
                  (harg2.unread x1)
                  (arg4.view.writes (Elt F) arg4.view.junk
                    [⟨Rect.unit (s := S1024x1) ![0, 0] S1024x1.size inb_S1024x1_S1024x1_0_0, k0_pay1⟩])
                  k0_t1_loop.trips ++
                [⟨Rect.unit (s := S1024x1) ![0, 0] S1024x1.size inb_S1024x1_S1024x1_0_0, k0_pay1⟩])))⟩] := by
  unfold kernelRun
  dsimp only
  sl_unfold_words
  rfl

/-- The output column after the body: the final payload of the accumulator after all the trips. -/
theorem outCol_eq (c : Dev nD) (i : grid0.Coords) (arg1 : Memref sig .tc .vmem S1024x128 .bf16) (harg1 : arg1.IsWhole)
    (arg2 : Memref sig .tc .vmem S16384x128 .bf16) (harg2 : arg2.IsWhole) (arg3 : Memref sig .tc .vmem S1024x1 .f32) (harg3 : arg3.IsWhole)
    (arg4 : Memref sig .tc .vmem S1024x1 .f32) (harg4 : arg4.IsWhole)
    (x0 : Vec F S1024x128 .bf16) (x1 : Vec F S16384x128 .bf16) :
    outCol c i arg1 harg1 arg2 harg2 arg3 harg3 arg4 harg4 x0 x1 = k0_pay3 (accAt x0 x1 k0_t1_loop.trips) := by
  unfold outCol
  rw [kernelRun_pieces, read_cons_col, View.readAt_eq_ld, View.readAt_eq_ld, harg1.read_unread,
    View.ld_unit_zero (S := S1024x1) hz2, View.ld_unit_zero (S := S1024x128) hz2, View.writes_append,
    acc_after c i arg1 harg1 arg2 harg2 arg3 harg3 arg4 harg4 x0 x1 _ (read_cons_col _ _ _ _) _ (Nat.le_refl _)]

end Cert.KernelIdeal.Hand

end
-- ==== Proof.PayloadRows.lean ====
/-
  The kernel's three stored values, read at one element, at the ideal values.

  A block of 1024 rows keeps one accumulator per row. It starts at the zero word; each step adds to row r the sum,
  over the 1024 rows l of one chunk, of exp of the inner product of row r of the left block with row l of the chunk
  (the product of the left block with the transposed chunk, into a zero accumulator, then exp, then the sum along
  the second axis, then the vector of sums viewed as a column); the last value is zero minus the logarithm of the
  accumulator times the word of 2^-14. A cast to the same shape is the identity, a transposed matrix at (k, l) is
  the matrix at (l, k), a vector viewed as a column at (r, 0) is the vector at r, and the one-axis contraction index
  of the product is its one coordinate.
-/
import proofs.«122388_j28956669510249_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.RowValue

open Cert.KernelIdeal Cert.KernelIdeal.Gen Idealize.ShloMosaic Idealize.ShloMosaic.ValueIdx

/-! ## Layout and pointwise operations at an index -/

/-- A vector cast to a column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An exponential at an index is the exponential of the element. -/
theorem exp_apply {s : Shape} {φ : FTy} (v : FVec Ideal s φ) (i : s.Idx) : exp v i = Ideal.exp (v i) := rfl

/-! ## The lane sum and the product at an index -/

/-- The sum along the second axis of a 1024 x 1024 array, at r, is the sum over l of the array at (r, l). -/
theorem laneSum_apply (v : FVec Ideal S1024x1024 .f32) (hφ : FKind.Formats .f32)
    (hacc : (0x00000000#32 : BitVec 32) = FKind.add.neutral .f32 hφ) (r : Fin 1024) :
    multiReduction (F := Ideal) .add [1] S1024 v 0x00000000#32 reduces_S1024x1024_S1024 hφ hacc (ix1 r)
      = ∑ l : Fin 1024, v (ix2 r l) := by
  refine (Ideal.multiReduction_add_single v 0x00000000#32 reduces_S1024x1024_S1024 hφ hacc (ix1 r)).trans ?_
  refine Finset.sum_congr rfl fun l _ => ?_
  exact congrArg v (funext fun d => Fin.ext (by match d with | ⟨0, _⟩ => rfl | ⟨1, _⟩ => rfl))

theorem lhs_0 (i : S1024x1024.Idx) (c : dot_S1024x128_S128x1024_S1024x1024_1_0_0_1_n_n.contr.Idx) :
    (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem lhs_1 (i : S1024x1024.Idx) (c : dot_S1024x128_S128x1024_S1024x1024_1_0_0_1_n_n.contr.Idx) :
    (dot_S1024x128_S128x1024_S1024x1024_1_0_0_1_n_n.lhsIdx i c 1).val = (c ⟨0, by decide⟩).val :=
  dot_S1024x128_S128x1024_S1024x1024_1_0_0_1_n_n.lhsIdx_val_of_single rfl i c
theorem rhs_0 (i : S1024x1024.Idx) (c : dot_S1024x128_S128x1024_S1024x1024_1_0_0_1_n_n.contr.Idx) :
    (dot_S1024x128_S128x1024_S1024x1024_1_0_0_1_n_n.rhsIdx i c 0).val = (c ⟨0, by decide⟩).val :=
  dot_S1024x128_S128x1024_S1024x1024_1_0_0_1_n_n.rhsIdx_val_of_single rfl i c
theorem rhs_1 (i : S1024x1024.Idx) (c : dot_S1024x128_S128x1024_S1024x1024_1_0_0_1_n_n.contr.Idx) :
    (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The product into the zero accumulator, at (r, l), is the sum over k of the left operand at (r, k) times the
    right operand at (k, l). -/
theorem matmul_apply_ix2 (x : FVec Ideal S1024x128 .bf16) (y : FVec Ideal S128x1024 .bf16) (r l : Fin 1024) :
    matmul (F := Ideal) dot_S1024x128_S128x1024_S1024x1024_1_0_0_1_n_n none x y (constant S1024x1024 .f32 0x00000000#32) (ix2 r l)
      = ∑ k : Fin 128, x (ix2 r k) * y (ix2 k l) := by
  simp only [matmul]
  rw [Ideal.matmul_constant_zero_apply,
    ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r l)
      ((contrEquiv1 dot_S1024x128_S128x1024_S1024x1024_1_0_0_1_n_n 128 rfl rfl).symm k) = ix2 r k :=
    funext fun a => Fin.ext (by
      match a with
      | ⟨0, _⟩ => exact lhs_0 _ _
      | ⟨1, _⟩ => exact (lhs_1 _ _).trans hk)
  have er : dot_S1024x128_S128x1024_S1024x1024_1_0_0_1_n_n.rhsIdx (ix2 r l)
      ((contrEquiv1 dot_S1024x128_S128x1024_S1024x1024_1_0_0_1_n_n 128 rfl rfl).symm k) = ix2 k l :=
    funext fun a => Fin.ext (by
      match a with
      | ⟨0, _⟩ => exact (rhs_0 _ _).trans hk
      | ⟨1, _⟩ => exact rhs_1 _ _)
  rw [el, er]

/-! ## The three payloads at an index -/

/-- The accumulator's initial block is the zero word everywhere. -/
theorem pay1_apply (r : Fin 1024) : k0_pay1 (F := Ideal) (ix2 r (0 : Fin 1)) = Ideal.ofBits .f32 0x00000000#32 := by
  unfold k0_pay1
  rw [shapeCast_self]
  rfl

/-- One step of the accumulation: row r of the accumulator plus the sum, over the 1024 rows l of the chunk, of the
    exponential of the inner product of row r of the left block and row l of the chunk. -/
theorem pay2_apply (q kc : FVec Ideal S1024x128 .bf16) (a : FVec Ideal S1024x1 .f32) (r : Fin 1024) :
    k0_pay2 (F := Ideal) q kc a (ix2 r (0 : Fin 1))
      = a (ix2 r 0) + ∑ l : Fin 1024, Ideal.exp (∑ k : Fin 128, q (ix2 r k) * kc (ix2 l k)) := by
  simp only [k0_pay2, shapeCast_self]
  rw [addf_apply, shapeCast_a_a1_apply]
  refine congrArg (a (ix2 r 0) + ·) ?_
  refine (laneSum_apply _ _ _ r).trans ?_
  refine Finset.sum_congr rfl fun l _ => ?_
  rw [exp_apply, matmul_apply_ix2]
  refine congrArg Ideal.exp (Finset.sum_congr rfl fun k _ => ?_)
  rw [transpose_ix2_apply]

/-- The same with the zero word written in front of the chunk's sum. -/
theorem pay2_apply' (q kc : FVec Ideal S1024x128 .bf16) (a : FVec Ideal S1024x1 .f32) (r : Fin 1024) :
    k0_pay2 (F := Ideal) q kc a (ix2 r (0 : Fin 1))
      = a (ix2 r 0) + (Ideal.ofBits .f32 0x00000000#32
          + ∑ l : Fin 1024, Ideal.exp (∑ k : Fin 128, q (ix2 r k) * kc (ix2 l k))) := by
  rw [pay2_apply, Ideal.ofBits_zero_f32, zero_add]

/-- The final row: zero minus the logarithm of the accumulator's row times 2^-14. -/
theorem pay3_apply (a : FVec Ideal S1024x1 .f32) (r : Fin 1024) :
    k0_pay3 (F := Ideal) a (ix2 r (0 : Fin 1))
      = Ideal.ofBits .f32 0x00000000#32 - Ideal.log (a (ix2 r 0) * Ideal.ofBits .f32 0x38800000#32) := rfl

end Cert.KernelIdeal.RowValue

end
-- ==== Proof.LossSpec.lean ====
/-
  The contrastive loss as ONE function of the input array, over plain index types, and the
  rearrangements that two different ways of computing it differ by.

  For z : Fin 16384 → Fin 128 → EReal (a row per sample):
    scaled z i k = z i k / t                        (t the temperature literal)
    score  z i j = ∑ k, scaled z i k * scaled z j k  (the Gram matrix of the scaled rows)
    rowSum z i   = ∑ j, exp (score z i j)
    rowLoss z i  = -log (rowSum z i / N)             (N the literal 16384)
    loss z       = (∑ i, rowLoss z i) / N
  every operation the extended reals' (division is Ideal.div, exp / log are Ideal.exp / Ideal.log),
  the float literals kept as the words they are written with and never evaluated, except where a law
  between two different words is needed (2^-14 against 16384, and the zero word).

  The laws, all on the whole of the extended reals (no finiteness hypothesis is needed by any of them):
    * a sum over 16384 indices is the sum over 16 chunks of the sums over the 1024 indices of a chunk
      (chunk_sum), and an accumulator that starts at zero and adds one chunk's sum per step ends at
      the whole sum (acc_fold);
    * 0 - log (s * 2^-14) = -log (s / 16384) for every extended real s (kernel_row): division by
      a nonzero real is the product with its reciprocal at the infinities too, and 0 - y = -y.
-/
import Idealize.ShloMosaic.PureOps.Ideal
import Idealize.ShloMosaic.PureOps.Ideal.Laws
import Idealize.ShloMosaic.Lib.ValueIdx

noncomputable section

open scoped BigOperators

namespace Cert.Contrastive

open Idealize.ShloMosaic

/-! ## The specification -/

/-- A row entry divided by the temperature literal (the word of 0.1 at f32). -/
def scaled (z : Fin 16384 → Fin 128 → EReal) (i : Fin 16384) (k : Fin 128) : EReal :=
  Ideal.div (z i k) (Ideal.ofBits .f32 0x3DCCCCCD#32)

/-- The inner product of two scaled rows. -/
def score (z : Fin 16384 → Fin 128 → EReal) (i j : Fin 16384) : EReal :=
  ∑ k : Fin 128, scaled z i k * scaled z j k

/-- The sum over all rows j of the exponential of the score of i against j. -/
def rowSum (z : Fin 16384 → Fin 128 → EReal) (i : Fin 16384) : EReal :=
  ∑ j : Fin 16384, Ideal.exp (score z i j)

/-- Minus the logarithm of the mean exponential score of row i. -/
def rowLoss (z : Fin 16384 → Fin 128 → EReal) (i : Fin 16384) : EReal :=
  -(Ideal.log (Ideal.div (rowSum z i) (Ideal.ofBits .f32 0x46800000#32)))

/-- The mean of the row losses. -/
def loss (z : Fin 16384 → Fin 128 → EReal) : EReal :=
  Ideal.div (∑ i : Fin 16384, rowLoss z i) (Ideal.ofBits .f32 0x46800000#32)

/-! ## The two literals that meet: 2^-14 and 16384 -/

/-- The word 0x46800000 denotes the real 16384. -/
theorem ofBits_16384 : Ideal.ofBits .f32 0x46800000#32 = ((16384 : ℝ) : EReal) := by
  simp [Ideal.ofBits, Ideal.ieee, -EReal.coe_mul]; norm_num

/-- The word 0x38800000 denotes the real 1 / 16384. -/
theorem ofBits_inv_16384 : Ideal.ofBits .f32 0x38800000#32 = ((1 / 16384 : ℝ) : EReal) := by
  simp [Ideal.ofBits, Ideal.ieee, -EReal.coe_mul]; norm_num

/-- The product with 2^-14 is the quotient by 16384, on every extended real. -/
theorem mul_inv_eq_div (s : EReal) :
    s * Ideal.ofBits .f32 0x38800000#32 = Ideal.div s (Ideal.ofBits .f32 0x46800000#32) := by
  rw [ofBits_16384, ofBits_inv_16384, Ideal.div_coe (by norm_num : (16384 : ℝ) ≠ 0)]

/-- One row as the kernel computes it, 0 - log (s * 2^-14), is the row as the specification
    states it, -log (s / 16384): for every extended real s. -/
theorem kernel_row (s : EReal) :
    Ideal.ofBits .f32 0x00000000#32 - Ideal.log (s * Ideal.ofBits .f32 0x38800000#32)
      = -(Ideal.log (Ideal.div s (Ideal.ofBits .f32 0x46800000#32))) := by
  rw [mul_inv_eq_div, Ideal.ofBits_zero_f32, sub_eq_add_neg, zero_add]

/-- The same with a reduction's initial zero still written in front of the sum. -/
theorem kernel_row' (s : EReal) :
    Ideal.ofBits .f32 0x00000000#32 - Ideal.log (s * Ideal.ofBits .f32 0x38800000#32)
      = -(Ideal.log (Ideal.div (Ideal.ofBits .f32 0x00000000#32 + s) (Ideal.ofBits .f32 0x46800000#32))) := by
  rw [kernel_row, Ideal.ofBits_zero_f32, zero_add]

/-! ## A sum over 16384 indices, by chunks of 1024 -/

/-- The index c * 1024 + l of the l-th element of chunk c. -/
def chunkIdx (c : Fin 16) (l : Fin 1024) : Fin 16384 := ⟨c.val * 1024 + l.val, by omega⟩

@[simp] theorem chunkIdx_val (c : Fin 16) (l : Fin 1024) : (chunkIdx c l).val = c.val * 1024 + l.val := rfl

/-- A sum over 16384 indices is the sum over the 16 chunks of the sum over a chunk's 1024 indices. -/
theorem chunk_sum (e : Fin 16384 → EReal) :
    ∑ j : Fin 16384, e j = ∑ c : Fin 16, ∑ l : Fin 1024, e (chunkIdx c l) := by
  rw [← Fintype.sum_prod_type (f := fun p : Fin 16 × Fin 1024 => e (chunkIdx p.1 p.2))]
  refine (Fintype.sum_equiv (finProdFinEquiv (m := 16) (n := 1024)) _ _ fun p => ?_).symm
  refine congrArg e (Fin.ext ?_)
  show p.1.val * 1024 + p.2.val = p.2.val + 1024 * p.1.val
  omega

/-- The sum of the first k chunks (all sixteen once k reaches 16). -/
def chunksBelow (e : Fin 16384 → EReal) (k : ℕ) : EReal :=
  ∑ c : Fin 16, if c.val < k then ∑ l : Fin 1024, e (chunkIdx c l) else 0

theorem chunksBelow_zero (e : Fin 16384 → EReal) : chunksBelow e 0 = 0 := by
  simp [chunksBelow]

theorem chunksBelow_succ (e : Fin 16384 → EReal) (k : ℕ) (hk : k < 16) :
    chunksBelow e (k + 1) = chunksBelow e k + ∑ l : Fin 1024, e (chunkIdx ⟨k, hk⟩ l) := by
  unfold chunksBelow
  have h : ∀ c : Fin 16,
      (if c.val < k + 1 then ∑ l : Fin 1024, e (chunkIdx c l) else 0)
        = (if c.val < k then ∑ l : Fin 1024, e (chunkIdx c l) else 0)
          + (if c = ⟨k, hk⟩ then ∑ l : Fin 1024, e (chunkIdx ⟨k, hk⟩ l) else 0) := by
    intro c
    by_cases h1 : c.val < k
    · have h2 : c ≠ ⟨k, hk⟩ := fun h => by rw [h] at h1; exact lt_irrefl _ h1
      rw [if_pos h1, if_pos (by omega), if_neg h2, add_zero]
    · by_cases h2 : c = ⟨k, hk⟩
      · subst h2
        rw [if_neg h1, if_pos (by simp), if_pos rfl, zero_add]
      · have h3 : ¬ c.val < k + 1 := fun h => h2 (Fin.ext (by simp only []; omega))
        rw [if_neg h1, if_neg h3, if_neg h2, add_zero]
  rw [Finset.sum_congr rfl fun c _ => h c, Finset.sum_add_distrib, Finset.sum_ite_eq' (Finset.univ : Finset (Fin 16)) (⟨k, hk⟩ : Fin 16) (fun _ => ∑ l : Fin 1024, e (chunkIdx ⟨k, hk⟩ l)),
    if_pos (Finset.mem_univ _)]

theorem chunksBelow_all (e : Fin 16384 → EReal) : chunksBelow e 16 = ∑ j : Fin 16384, e j := by
  rw [chunk_sum]
  exact Finset.sum_congr rfl fun c _ => if_pos c.isLt

/-- An accumulator that starts at zero and adds one chunk's sum per step holds, after k steps, the
    sum of the first k chunks. -/
theorem acc_fold_partial (e : Fin 16384 → EReal) (acc : ℕ → EReal) (h0 : acc 0 = 0)
    (hstep : ∀ k (hk : k < 16), acc (k + 1) = acc k + (0 + ∑ l : Fin 1024, e (chunkIdx ⟨k, hk⟩ l)))
    (k : ℕ) (hk : k ≤ 16) : acc k = chunksBelow e k := by
  induction k with
  | zero => rw [h0, chunksBelow_zero]
  | succ n ih =>
    rw [hstep n (by omega), ih (by omega), chunksBelow_succ e n (by omega), zero_add]

/-- … so after sixteen steps it holds the whole sum. -/
theorem acc_fold (e : Fin 16384 → EReal) (acc : ℕ → EReal) (h0 : acc 0 = 0)
    (hstep : ∀ k (hk : k < 16), acc (k + 1) = acc k + (0 + ∑ l : Fin 1024, e (chunkIdx ⟨k, hk⟩ l))) :
    acc 16 = ∑ j : Fin 16384, e j := by
  rw [acc_fold_partial e acc h0 hstep 16 le_rfl, chunksBelow_all]

/-- The same with both zeros written as the zero word. -/
theorem acc_fold_bits (e : Fin 16384 → EReal) (acc : ℕ → EReal) (h0 : acc 0 = Ideal.ofBits .f32 0x00000000#32)
    (hstep : ∀ k (hk : k < 16),
      acc (k + 1) = acc k + (Ideal.ofBits .f32 0x00000000#32 + ∑ l : Fin 1024, e (chunkIdx ⟨k, hk⟩ l))) :
    acc 16 = ∑ j : Fin 16384, e j := by
  refine acc_fold e acc (by rw [h0, Ideal.ofBits_zero_f32]) fun k hk => ?_
  rw [hstep k hk, Ideal.ofBits_zero_f32]

end Cert.Contrastive

end
-- ==== Proof.HostEnds.lean ====
/-
  The operations of the kernel program that run outside the kernel, read at one element, at the ideal values, from
  arbitrary contents of the buffers they read.

  Before the kernel: the argument is divided elementwise by the temperature literal broadcast to its shape, and the
  quotient's format is narrowed, which is the identity on extended reals: the array the kernel reads holds, at (i, k),
  the scaled entry of the specification.

  After the kernel: the column of row values is viewed as a vector (a column at (i, 0) is the vector at i), summed
  from the zero word, which denotes 0, and divided by the literal 16384: if the column holds g i at (i, 0), the scalar
  result is (∑ i, g i) / 16384 — the specification's loss when g is its row loss.
-/
import proofs.«122388_j28956669510249_2_alg».proof.Proof.Gen.KernelIdeal.Launch
import proofs.«122388_j28956669510249_2_alg».proof.Proof.LossSpec
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.RowValue

open Cert.KernelIdeal Cert.KernelIdeal.Gen Idealize.ShloMosaic Idealize.ShloMosaic.ValueIdx

/-! ## Two readings at an index -/

/-- A column cast to a vector reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A rank-1 index set is its one coordinate's range. -/
def idxEquiv1 {n : ℕ} : (⟨1, ![n]⟩ : Shape).Idx ≃ Fin n where
  toFun j := j 0
  invFun a := ix1 a
  left_inv j := (eq_ix1 j).symm
  right_inv _ := rfl

/-- The sum of a whole vector from the zero word is the sum over its coordinate. -/
theorem reduceAll_apply (y : FVec Ideal S16384 .f32) (j : S_.Idx) :
    Host.reduceAdd (F := Ideal) y (constant (F := Ideal) S_ .f32 0x00000000#32) reducesTo_S16384_S_d0 h_S_ j
      = ∑ a : Fin 16384, y (ix1 a) := by
  simp only [Host.reduceAdd, Ideal.hostReduceAdd_def]
  rw [Ideal.hostReduceAdd_total reducesTo_S16384_S_d0 (fun b => b.elim0) y _ j, constant_apply,
    Ideal.ofBits_zero_f32, zero_add, ← Equiv.sum_comp (idxEquiv1 (n := 16384)).symm]
  rfl

/-! ## The operations before the kernel: the rows divided by the temperature -/

/-- The array the kernel reads, at (i, k), is the argument at (i, k) divided by the temperature literal. -/
theorem rows_scaled (W : Valuation τ sig (Elt Ideal)) (i : Fin 16384) (k : Fin 128) :
    (StableHlo.after hostOps0 W (Proc.devRef .tc main_v2) : S16384x128.Idx → EReal) (ix2 i k)
      = Cert.Contrastive.scaled (fun i k => (W (Proc.devRef .tc main_arg0) : S16384x128.Idx → EReal) (ix2 i k)) i k := by
  have e : (StableHlo.after hostOps0 W (Proc.devRef .tc main_v2) : S16384x128.Idx → EReal)
      = truncf (F := Ideal) .bf16 (Host.divf (F := Ideal) (W (Proc.devRef .tc main_arg0))
          (broadcastInDim S16384x128 ![] bcast_S_S16384x128 (constant (F := Ideal) S_ .f32 0x3DCCCCCD#32))) bitsLt_bf16_f32 := by
    after_results
  rw [e, truncf_apply]
  show Ideal.div ((W (Proc.devRef .tc main_arg0) : S16384x128.Idx → EReal) (ix2 i k))
      (broadcastInDim S16384x128 ![] bcast_S_S16384x128 (constant (F := Ideal) S_ .f32 0x3DCCCCCD#32) (ix2 i k)) = _
  rw [broadcastInDim_apply _ bcast_S_S16384x128 _ (ix2 i k) (fun a => a.elim0) (fun a => a.elim0)]
  rfl

/-! ## The operations after the kernel: the mean of the column -/

/-- If the column the kernel wrote holds g i at (i, 0), the scalar result is the sum of g divided by the literal 16384. -/
theorem closing_loss (W : Valuation τ sig (Elt Ideal)) (g : Fin 16384 → EReal)
    (h : ∀ i : Fin 16384, (W (Proc.devRef .tc main_v3) : S16384x1.Idx → EReal) (ix2 i (0 : Fin 1)) = g i) :
    StableHlo.after hostOps1 W (Proc.devRef .tc main_v6)
      = fun _ => Ideal.div (∑ i : Fin 16384, g i) (Ideal.ofBits .f32 0x46800000#32) := by
  have e : (StableHlo.after hostOps1 W (Proc.devRef .tc main_v6) : S_.Idx → EReal)
      = Host.divf (F := Ideal) (Host.reduceAdd (F := Ideal)
          (shapeCast S16384 (W (Proc.devRef .tc main_v3) : S16384x1.Idx → EReal) shapeCasts_S16384x1_S16384)
          (constant (F := Ideal) S_ .f32 0x00000000#32) reducesTo_S16384_S_d0 h_S_)
        (constant (F := Ideal) S_ .f32 0x46800000#32) := by
    after_results; rfl
  rw [e]
  funext j
  show Ideal.div (Host.reduceAdd (F := Ideal)
          (shapeCast S16384 (W (Proc.devRef .tc main_v3) : S16384x1.Idx → EReal) shapeCasts_S16384x1_S16384)
          (constant (F := Ideal) S_ .f32 0x00000000#32) reducesTo_S16384_S_d0 h_S_ j) (Ideal.ofBits .f32 0x46800000#32) = _
  rw [reduceAll_apply]
  refine congrArg (Ideal.div · (Ideal.ofBits .f32 0x46800000#32)) (Finset.sum_congr rfl fun a _ => ?_)
  rw [shapeCast_a1_a_apply, h]

end Cert.KernelIdeal.RowValue

end
-- ==== Proof.LossColumn.lean ====
/-
  What the region leaves, at the ideal instance. Grid point t writes back the 1024 losses of rows 1024·t … 1024·t+1023:
  the accumulator, zeroed and then increased by sixteen chunk sums of exp (q_i · k_j), ends at the full row sum
  ∑_j exp (zs_i · zs_j) (a sum over 16384 terms cut into 16 chunks of 1024: commutativity and associativity of the
  sum on the extended reals, nothing else), and the stored value 0 - log (acc · 2⁻¹⁴) is -log (acc / 16384) on all of
  the extended reals. The sixteen blocks tile the output column, so the column is the specification's row losses,
  and the five closing host operations make of it the specification's loss.
-/
import proofs.«122388_j28956669510249_2_alg».proof.Proof.MainRun
import proofs.«122388_j28956669510249_2_alg».proof.Proof.BlockValue
import proofs.«122388_j28956669510249_2_alg».proof.Proof.PayloadRows
import proofs.«122388_j28956669510249_2_alg».proof.Proof.LossSpec
import proofs.«122388_j28956669510249_2_alg».proof.Proof.HostEnds
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Contrastive Cert.KernelIdeal.RowValue ValueIdx

variable (m : (ℓ : Loc nD τ sig) → Buf (Elt Ideal) ℓ)

/-- The input rows, as the launch memory holds them. -/
abbrev inRows (c : Dev nD) : Fin 16384 → Fin 128 → EReal :=
  fun i k => (m ((c.tc : Thread nD τ).loc main_arg0) : S16384x128.Idx → EReal) (ix2 i k)

/-- The scaled rows the region is handed: each input entry divided by the temperature. -/
theorem rows_at (c : Dev nD) (i : Fin 16384) (k : Fin 128) :
    (V m c main_v2 : S16384x128.Idx → EReal) (ix2 i k) = scaled (inRows m c) i k :=
  rows_scaled (V₀ m c) i k

/-- One row of the output block: from query rows `x0` and key rows `x1` that are the scaled rows of `z` (row `r` of
    the query block being row `i` of the array), the stored value is the specification's loss of row `i`. -/
theorem row_value (x0 : FVec Ideal S1024x128 .bf16) (x1 : FVec Ideal S16384x128 .bf16) (z : Fin 16384 → Fin 128 → EReal)
    (i : Fin 16384) (r : Fin 1024) (hq : ∀ d : Fin 128, x0 (ix2 r d) = scaled z i d)
    (hk : ∀ (j : Fin 16384) (d : Fin 128), x1 (ix2 j d) = scaled z j d) :
    k0_pay3 (F := Ideal) (accAt (F := Ideal) x0 x1 k0_t1_loop.trips) (ix2 r (0 : Fin 1)) = rowLoss z i := by
  rw [pay3_apply, kernel_row]
  unfold rowLoss
  refine congrArg (fun s : EReal => -(Ideal.log (Ideal.div s (Ideal.ofBits .f32 0x46800000#32)))) ?_
  rw [trips_eq]
  unfold rowSum
  refine acc_fold_bits (fun j => Ideal.exp (score z i j)) (fun k => accAt (F := Ideal) x0 x1 k (ix2 r (0 : Fin 1))) ?_ ?_
  · show accAt (F := Ideal) x0 x1 0 (ix2 r (0 : Fin 1)) = _
    rw [accAt_zero, pay1_apply]
  · intro k hk'
    have hkt : k < k0_t1_loop.trips := by rw [trips_eq]; exact hk'
    show accAt (F := Ideal) x0 x1 (k + 1) (ix2 r (0 : Fin 1)) = accAt (F := Ideal) x0 x1 k (ix2 r (0 : Fin 1)) + _
    rw [show k + 1 = (⟨k, hkt⟩ : Fin k0_t1_loop.trips).val + 1 from rfl, accAt_succ, pay2_apply']
    show accAt (F := Ideal) x0 x1 k (ix2 r (0 : Fin 1)) + _ = _
    congr 2
    refine Finset.sum_congr rfl fun l _ => ?_
    congr 1
    unfold score
    refine Finset.sum_congr rfl fun d _ => ?_
    rw [hq d, keyChunk_apply, hk]
    congr 2
    exact Fin.ext (by simp only [chunkIdx_val]; omega)

/-- The printed index maps over the grid: the query block and the output block of point `t` start at row 1024·t,
    the key block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 16 := N_0 ▸ t.isLt

/-- The query block of point `t`, read at a row: row 1024·t + r of the scaled rows. -/
theorem qblk_apply (c : Dev nD) (t : Fin cfg0.N) (r : Fin 1024) (d : Fin 128) :
    iblk m c 0 t (ix2 r d) = (V m c main_v2 : S16384x128.Idx → EReal) (ix2 ⟨1024 * t.val + r.val, by have := point_lt t; omega⟩ d) := by
  unfold iblk
  show (V m c main_v2 : S16384x128.Idx → EReal) (((cfg0.win 0).blk t).view.emb (ix2 r d)) = _
  refine congrArg _ ?_
  funext a; apply Fin.ext
  obtain ⟨e0, e1, -⟩ := idx_facts t
  match a with
  | ⟨0, _⟩ => show win0_0.index t (0 : Fin 2) * 1024 + 1 * r.val = 1024 * t.val + r.val; omega
  | ⟨1, _⟩ => show win0_0.index t (1 : Fin 2) * 128 + 1 * d.val = d.val; omega

/-- The key block is the whole array of scaled rows. -/
theorem kblk_apply (c : Dev nD) (t : Fin cfg0.N) (j : Fin 16384) (d : Fin 128) :
    iblk m c 1 t (ix2 j d) = (V m c main_v2 : S16384x128.Idx → EReal) (ix2 j d) := by
  unfold iblk
  show (V m c main_v2 : S16384x128.Idx → EReal) (((cfg0.win 1).blk t).view.emb (ix2 j d)) = _
  refine congrArg _ ?_
  funext a; apply Fin.ext
  obtain ⟨-, -, e2, e3, -⟩ := idx_facts t
  match a with
  | ⟨0, _⟩ => show win0_1.index t (0 : Fin 2) * 16384 + 1 * j.val = j.val; omega
  | ⟨1, _⟩ => show win0_1.index t (1 : Fin 2) * 128 + 1 * d.val = d.val; omega

/-- The column of the specification's row losses. -/
def specCol (z : Fin 16384 → Fin 128 → EReal) : S16384x1.Idx → EReal := fun j => rowLoss z ⟨(j 0).val, (j 0).isLt⟩

/-- What point `t` writes back is block `t` of the specification's column. -/
theorem flushed_eq (c : Dev nD) (t : Fin cfg0.N) :
    (dats m 0 c).flushed 2 t = ((cfg0.win 2).blk t).view.read (Elt Ideal) (specCol (inRows m c)) := by
  show (cfg0.win 2).cut (grid0.coords t) ((dats m 0 c).after 2 t) = _
  rw [after_o]
  unfold outAt
  rw [outCol_eq]
  funext j
  obtain ⟨r, u, rfl⟩ : ∃ (r : Fin 1024) (u : Fin 1), j = ix2 r u := ⟨j 0, j 1, eq_ix2 j⟩
  obtain rfl : u = 0 := Subsingleton.elim _ _
  have hrow := row_value (iblk m c 0 t) (iblk m c 1 t) (inRows m c) ⟨1024 * t.val + r.val, by have := point_lt t; omega⟩ r
    (fun d => (qblk_apply m c t r d).trans (rows_at m c _ d)) (fun j d => (kblk_apply m c t j d).trans (rows_at m c j d))
  refine hrow.trans ?_
  show rowLoss (inRows m c) _ = specCol (inRows m c) (((cfg0.win 2).blk t).view.emb (ix2 r (0 : Fin 1)))
  unfold specCol
  refine congrArg _ (Fin.ext ?_)
  obtain ⟨-, -, -, -, e4, -⟩ := idx_facts t
  show 1024 * t.val + r.val = win0_2.index t (0 : Fin 2) * 1024 + 1 * r.val
  omega

/-- An index of the output column is in point `t`'s block iff its row is in the block's range. -/
theorem mem_blk (t : Fin cfg0.N) (i : S16384x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v3).slice (win0_2.rect t)).set ↔ _
  rw [View.set_slice_whole, Rect.mem_set_unit]
  exact Iff.rfl

/-- The sixteen blocks tile the column: row i lies in the block of point i / 1024. -/
theorem covered (i : S16384x1.Idx) : ∃ t : Fin cfg0.N, (cfg0.win 2).flush t = true ∧ i ∈ ((cfg0.win 2).blk t).view.set := by
  have hi0 : (i 0).val < 16384 := (i 0).isLt
  have hi1 : (i 1).val < 1 := (i 1).isLt
  let t : Fin cfg0.N := ⟨(i 0).val / 1024, by rw [show cfg0.N = 16 from N_0]; omega⟩
  refine ⟨t, flush0_2 t, ?_⟩
  rw [mem_blk]
  obtain ⟨-, -, -, -, e4, e5⟩ := idx_facts t
  have ht : t.val = (i 0).val / 1024 := rfl
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1 ≤ (i 1).val ∧ (i 1).val < win0_2.index t (1 : Fin 2) * 1 + 1; omega

/-- The output column after the region is the specification's column of row losses. -/
theorem lossCol_eq (c : Dev nD) : lossCol m c = specCol (inRows m c) :=
  (dats m 0 c).arrAt_eq_of_cover 2 (specCol (inRows m c)) (fun t _ => flushed_eq m c t) covered

/-- The result buffer after the closing host operations is the specification's loss of the input rows. -/
theorem result_value (c : Dev nD) :
    StableHlo.after hostOps1 (W₁ m c) (Proc.devRef .tc main_v6) = fun _ => loss (inRows m c) := by
  refine closing_loss (W₁ m c) (fun i => rowLoss (inRows m c) i) fun i => ?_
  rw [W₁_out, lossCol_eq]
  rfl

end Cert.KernelIdeal.Hand

end
-- ==== Proof.ReferenceLoss.lean ====
/-
  The reference program's result, at the ideal values, is the contrastive loss of the specification
  (Proof/LossSpec.lean) of its argument array: read one operation at a time from the last to the first,
  the scalar result is the mean over the rows i of -log ((∑ j, exp (score i j)) / 16384), where
  score i j is the inner product of rows i and j of the argument divided by the temperature literal.
  The transposed operand of the product read at (k, j) is the scaled argument at (j, k); each of the two
  sums starts from the zero word, which denotes 0.
-/
import proofs.«122388_j28956669510249_2_alg».proof.Proof.Gen.ReferenceIdeal.Read
import proofs.«122388_j28956669510249_2_alg».proof.Proof.LossSpec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Contrastive

/-- The argument array as a function of its two coordinates. -/
abbrev rows (x0 : (⟨S16384x128, .f32⟩ : BufTy).Contents (Elt Ideal)) : Fin 16384 → Fin 128 → EReal :=
  fun i k => x0 (ix2 i k)

/-! ## The index functions of the reading, at indices given by their coordinates -/

theorem lidx_ix2 (a b : Fin 16384) (k : Fin 128) : lidx_main_v3 (ix2 a b) k = ix2 a k :=
  funext fun d => match d with | ⟨0, _⟩ => rfl | ⟨1, _⟩ => rfl

theorem ridx_ix2 (a b : Fin 16384) (k : Fin 128) : idx_main_v2 (ridx_main_v3 (ix2 a b) k) = ix2 b k :=
  funext fun d => match d with | ⟨0, _⟩ => rfl | ⟨1, _⟩ => rfl

theorem idx5_ix1 (a k : Fin 16384) : idx_main_v5 (ix1 a) k = ix2 a k :=
  funext fun d => match d with | ⟨0, _⟩ => rfl | ⟨1, _⟩ => rfl

/-- A rank-1 index set is its one coordinate's range. -/
def idxEquiv1 : S16384.Idx ≃ Fin 16384 where
  toFun j := j 0
  invFun a := ix1 a
  left_inv j := (eq_ix1 j).symm
  right_inv _ := rfl

/-! ## The stages, from the first to the last -/

/-- The scaled argument at (a, k). -/
theorem scaled_eq (x0 : (⟨S16384x128, .f32⟩ : BufTy).Contents (Elt Ideal)) (a : Fin 16384) (k : Fin 128) :
    val_main_v1 (F := Ideal) x0 (ix2 a k) = scaled (rows x0) a k := by
  rw [val_main_v1_apply, val_main_v0_apply, val_main_cst_apply]
  rfl

/-- The product's element at (a, b) is the score of row a against row b. -/
theorem score_eq (x0 : (⟨S16384x128, .f32⟩ : BufTy).Contents (Elt Ideal)) (a b : Fin 16384) :
    val_main_v3 (F := Ideal) x0 (ix2 a b) = score (rows x0) a b := by
  rw [val_main_v3_apply]
  unfold score
  refine Finset.sum_congr rfl fun k _ => ?_
  rw [val_main_v2_apply, lidx_ix2, ridx_ix2, scaled_eq, scaled_eq]

/-- The row sum: the zero word plus the sum over b of the exponentials. -/
theorem rowSum_eq (x0 : (⟨S16384x128, .f32⟩ : BufTy).Contents (Elt Ideal)) (a : Fin 16384) :
    val_main_v5 (F := Ideal) x0 (ix1 a) = rowSum (rows x0) a := by
  rw [val_main_v5_apply, val_main_cst_0_apply, Ideal.ofBits_def, Ideal.ofBits_zero_f32, zero_add]
  unfold rowSum
  refine Finset.sum_congr rfl fun b _ => ?_
  rw [idx5_ix1, val_main_v4_apply, score_eq, Ideal.hostUnary_exp_def]

/-- The row loss. -/
theorem rowLoss_eq (x0 : (⟨S16384x128, .f32⟩ : BufTy).Contents (Elt Ideal)) (a : Fin 16384) :
    val_main_v9 (F := Ideal) x0 (ix1 a) = rowLoss (rows x0) a := by
  rw [val_main_v9_apply, val_main_v8_apply, val_main_v7_apply, val_main_v6_apply, val_main_cst_1_apply, rowSum_eq]
  rfl

/-- The reference's last stage is the loss of the argument array. -/
theorem val_eq_loss (x0 : (⟨S16384x128, .f32⟩ : BufTy).Contents (Elt Ideal)) :
    val_main_v11 (F := Ideal) x0 = fun _ => loss (rows x0) := by
  funext i
  rw [val_main_v11_apply, val_main_v10_apply, val_main_cst_3_apply, val_main_cst_2_apply, Ideal.ofBits_def,
    Ideal.ofBits_zero_f32, zero_add, ← Equiv.sum_comp idxEquiv1.symm]
  unfold loss
  rw [Ideal.hostDivf_def, Ideal.ofBits_def]
  have h : ∀ a : Fin 16384, val_main_v9 (F := Ideal) x0 (idxEquiv1.symm a) = rowLoss (rows x0) a :=
    fun a => rowLoss_eq x0 a
  rw [Fintype.sum_congr _ _ h]

/-- The term the reference's run ends with is the loss of the argument array. -/
theorem result_eq (x0 : FVec Ideal S16384x128 .f32) :
    Host.divf (Host.reduceAdd (Host.negf (Host.log (Host.divf (Host.reduceAdd (Host.exp (Host.dotGeneral dot_S16384x128_S128x16384_S16384x16384_1_0_0_1_n_n none (Host.divf (x0) (broadcastInDim S16384x128 ![] bcast_S_S16384x128 (constant S_ .f32 0x3DCCCCCD#32))) (transpose S128x16384 [1, 0] (Host.divf (x0) (broadcastInDim S16384x128 ![] bcast_S_S16384x128 (constant S_ .f32 0x3DCCCCCD#32))) transposes_S16384x128_S128x16384_1_0))) (constant S_ .f32 0x00000000#32) reducesTo_S16384x16384_S16384_d1 h_S_) (broadcastInDim S16384 ![] bcast_S_S16384 (constant S_ .f32 0x46800000#32))))) (constant S_ .f32 0x00000000#32) reducesTo_S16384_S_d0 h_S_) (constant S_ .f32 0x46800000#32)
      = fun _ => loss (rows x0) :=
  (val_main_v11_eq (F := Ideal) x0).trans (val_eq_loss x0)

end Cert.ReferenceIdeal.RefValue

end
-- ==== Proof.lean ====
/-
  The contrastive loss  mean_i ( -log ( ∑_j exp (zs_i · zs_j) / N ) ),  zs = z / T,  N = 16384 rows of 128 entries.
  The kernel never forms the N × N matrix of scores: grid point t takes 1024 query rows, walks the key rows in
  sixteen chunks of 1024, adds the chunk's row sums of exp (q · kᵀ) to an accumulator column and stores
  0 - log (acc · 2⁻¹⁴); the host averages the N losses. The reference computes the same quantity with one matrix
  product, one row sum, a division by N, a logarithm and a negation. On the extended reals the two agree index by
  index: the scores are the same sums of products, a sum of N terms is the sum of its sixteen chunks (the sum is
  commutative and associative, no finiteness is needed), x · 2⁻¹⁴ is x / 16384 for every extended real x, and
  0 - y is -y. Each program runs to the end from any memory, nothing faulting, and leaves its input unchanged;
  the kernel's idealization rewrites no operation.
-/
import proofs.«122388_j28956669510249_2_alg».proof.Defs
import proofs.«122388_j28956669510249_2_alg».proof.Proof.Gen.Kernel
import proofs.«122388_j28956669510249_2_alg».proof.Proof.Gen.KernelIdeal
import proofs.«122388_j28956669510249_2_alg».proof.Proof.Gen.ReferenceIdeal
import proofs.«122388_j28956669510249_2_alg».proof.Proof.Gen.Pre_finite_inputs
import proofs.«122388_j28956669510249_2_alg».proof.Proof.Gen.ReferenceIdeal.Run
import proofs.«122388_j28956669510249_2_alg».proof.Proof.Gen.ReferenceIdeal.Read
import proofs.«122388_j28956669510249_2_alg».proof.Proof.WordMainRun
import proofs.«122388_j28956669510249_2_alg».proof.Proof.MainRun
import proofs.«122388_j28956669510249_2_alg».proof.Proof.LossColumn
import proofs.«122388_j28956669510249_2_alg».proof.Proof.ReferenceLoss
import Idealize.ShloMosaic.Adequacy
import Idealize.ShloMosaic.Init

noncomputable section

namespace Cert.Proof

open Idealize.ShloMosaic Idealize.ShloMosaic.TcCoe Idealize.SL.Sem

/-- The word-level kernel program runs to the end and leaves its input unchanged. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification's loss of the (agreeing) input rows. -/
theorem algebraic : Cert.algebraic_KernelIdeal_ReferenceIdeal := by
  intro m ρ m' ρ' _ hagree
  refine ⟨fun c => fun _ => Cert.Contrastive.loss (Cert.KernelIdeal.Hand.inRows m c), ?_, ?_⟩
  · exact (θ_run Cert.KernelIdeal.defs _ _).mono
      (fun _ h c => ⟨(h c).1.trans (Cert.KernelIdeal.Hand.result_value m c), (h c).2⟩) (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [hagree c]
    exact Cert.ReferenceIdeal.RefValue.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
